-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2x256x256 : Shape := ⟨4, ![128, 2, 256, 256]⟩
abbrev S_ : Shape := ⟨0, ![]⟩

class Facts : Prop where
  bcast_S_S128x2x256x256 : S_.BroadcastsInDim S128x2x256x256 (![] : Fin 0 → Fin S128x2x256x256.rank)
  reducesTo_S128x2x256x256_S_d0_1_2_3 : S128x2x256x256.ReducesTo [0, 1, 2, 3] S_
  h_S_ : 0 < S_.numel

variable [Facts]

def fn {F : FTy → Type} [FloatOps F] (main_arg0 : FVec F S128x2x256x256 .f32) : IVec S_ 1 :=
  let main_v0 : FVec F S128x2x256x256 .f32 := Host.absf main_arg0
  let main_cst : FVec F S_ .f32 := constant S_ .f32 0x7F800000#32
  let main_v1 : FVec F S128x2x256x256 .f32 := broadcastInDim S128x2x256x256 ![] bcast_S_S128x2x256x256 main_cst
  let main_v2 : IVec S128x2x256x256 1 := cmpf .olt main_v0 main_v1
  let main_c : IVec S_ 1 := constantI S_ 1 1#1
  let main_v3 : IVec S_ 1 := (fun x v => Host.reduce IntOp.andi x v reducesTo_S128x2x256x256_S_d0_1_2_3 h_S_) main_v2 main_c
  main_v3
-- ==== Kernel.lean ====
abbrev S128x2x256x256 : Shape := ⟨4, ![128, 2, 256, 256]⟩
abbrev S128x1x256x256 : Shape := ⟨4, ![128, 1, 256, 256]⟩
abbrev S8x2x256x256 : Shape := ⟨4, ![8, 2, 256, 256]⟩
abbrev S8x1x256x256 : Shape := ⟨4, ![8, 1, 256, 256]⟩
abbrev S8x1x256x254 : Shape := ⟨4, ![8, 1, 256, 254]⟩
abbrev S8x1x256x1 : Shape := ⟨4, ![8, 1, 256, 1]⟩

abbrev nBuf : Space → Nat
  | .hbm => 2
  | .vmem => 4
  | .smem => 0
  | _ => 0

abbrev bufTy : (tb : Table) → Fin (tcTables nBuf tb) → BufTy
  | .hbm, ⟨0, _⟩ => ⟨S128x2x256x256, .f32⟩
  | .hbm, ⟨1, _⟩ => ⟨S128x1x256x256, .f32⟩
  | .local _ .vmem, ⟨0, _⟩ => ⟨S8x2x256x256, .f32⟩
  | .local _ .vmem, ⟨1, _⟩ => ⟨S8x2x256x256, .f32⟩
  | .local _ .vmem, ⟨2, _⟩ => ⟨S8x1x256x256, .f32⟩
  | .local _ .vmem, ⟨3, _⟩ => ⟨S8x1x256x256, .f32⟩
  | _, _ => ⟨S128x2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x2x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8x2x256x256_S8x2x256x256_0_0_0_0 : ∀ a, (![0, 0, 0, 0] : Fin 4 → Nat) a + S8x2x256x256.size a ≤ S8x2x256x256.size a
  h_S8x2x256x256 : 0 < S8x2x256x256.numel
  slices_S8x2x256x256_o0_0_0_0_S8x1x256x256 : S8x2x256x256.Slices ![0, 0, 0, 0] S8x1x256x256
  slices_S8x2x256x256_o0_1_0_0_S8x1x256x256 : S8x2x256x256.Slices ![0, 1, 0, 0] S8x1x256x256
  transposes_S8x1x256x256_p0_1_3_2_S8x1x256x256 : S8x1x256x256.Transposes [0, 1, 3, 2] S8x1x256x256
  slices_S8x1x256x256_o0_0_0_2_S8x1x256x254 : S8x1x256x256.Slices ![0, 0, 0, 2] S8x1x256x254
  slices_S8x1x256x256_o0_0_0_0_S8x1x256x254 : S8x1x256x256.Slices ![0, 0, 0, 0] S8x1x256x254
  slices_S8x1x256x256_o0_0_0_0_S8x1x256x1 : S8x1x256x256.Slices ![0, 0, 0, 0] S8x1x256x1
  slices_S8x1x256x256_o0_0_0_1_S8x1x256x1 : S8x1x256x256.Slices ![0, 0, 0, 1] S8x1x256x1
  slices_S8x1x256x256_o0_0_0_2_S8x1x256x1 : S8x1x256x256.Slices ![0, 0, 0, 2] S8x1x256x1
  slices_S8x1x256x256_o0_0_0_255_S8x1x256x1 : S8x1x256x256.Slices ![0, 0, 0, 255] S8x1x256x1
  slices_S8x1x256x256_o0_0_0_254_S8x1x256x1 : S8x1x256x256.Slices ![0, 0, 0, 254] S8x1x256x1
  slices_S8x1x256x256_o0_0_0_253_S8x1x256x1 : S8x1x256x256.Slices ![0, 0, 0, 253] S8x1x256x1
  concatenates_S8x1x256x1_S8x1x256x254_S8x1x256x1_S8x1x256x256_d3 : Shape.Concatenates [S8x1x256x1, S8x1x256x254, S8x1x256x1] S8x1x256x256 3
  slices_S8x1x256x256_o0_0_0_1_S8x1x256x254 : S8x1x256x256.Slices ![0, 0, 0, 1] S8x1x256x254
  slices_S8x1x256x256_o0_0_0_3_S8x1x256x1 : S8x1x256x256.Slices ![0, 0, 0, 3] S8x1x256x1
  slices_S8x1x256x256_o0_0_0_252_S8x1x256x1 : S8x1x256x256.Slices ![0, 0, 0, 252] S8x1x256x1
  inb_S8x1x256x256_S8x1x256x256_0_0_0_0 : ∀ a, (![0, 0, 0, 0] : Fin 4 → Nat) a + S8x1x256x256.size a ≤ S8x1x256x256.size a
  h_S8x1x256x256 : 0 < S8x1x256x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2x256x256.size a ≤ S128x2x256x256.size a
  hwx0_0 : ∀ i : grid0.Coords, EltTy.bits .f32 = 32 ∨ (Rect.block (s := S128x2x256x256) S8x2x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x256x256.size a ≤ S128x1x256x256.size a
  hwx0_1 : ∀ i : grid0.Coords, EltTy.bits .f32 = 32 ∨ (Rect.block (s := S128x1x256x256) S8x1x256x256.size (cc0_transform_1 i) (hinb0_1 i)).WholeWords (EltTy.packing .f32)

variable [Facts₀]

abbrev win0_0 : Pipeline.Window sig grid0 :=
  Pipeline.Window.ofSpec (Memref.whole main_arg0) S8x2x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x2x256x256 : Shape := ⟨4, ![128, 2, 256, 256]⟩
abbrev S128x1x256x256 : Shape := ⟨4, ![128, 1, 256, 256]⟩
abbrev S_ : Shape := ⟨0, ![]⟩
abbrev S128x1x256x254 : Shape := ⟨4, ![128, 1, 256, 254]⟩
abbrev S128x1x256x1 : Shape := ⟨4, ![128, 1, 256, 1]⟩
abbrev S1x256x256 : Shape := ⟨3, ![1, 256, 256]⟩
abbrev S1x1x256x256 : Shape := ⟨4, ![1, 1, 256, 256]⟩

abbrev nBuf : Space → Nat
  | .hbm => 275
  | .vmem => 0
  | .smem => 0
  | _ => 0

abbrev hbmTy0_0 (i : Nat) : BufTy := match i % 128 with
  | 0 => ⟨S128x2x256x256, .f32⟩
  | 1 => ⟨S128x1x256x256, .f32⟩
  | 2 => ⟨S_, .f32⟩
  | 3 => ⟨S128x1x256x256, .f32⟩
  | 4 => ⟨S128x1x256x256, .f32⟩
  | 5 => ⟨S_, .f32⟩
  | 6 => ⟨S128x1x256x256, .f32⟩
  | 7 => ⟨S128x1x256x256, .f32⟩
  | 8 => ⟨S128x1x256x256, .f32⟩
  | 9 => ⟨S_, .f32⟩
  | 10 => ⟨S128x1x256x256, .f32⟩
  | 11 => ⟨S128x1x256x256, .f32⟩
  | 12 => ⟨S_, .f32⟩
  | 13 => ⟨S128x1x256x256, .f32⟩
  | 14 => ⟨S128x1x256x256, .f32⟩
  | 15 => ⟨S128x1x256x256, .f32⟩
  | 16 => ⟨S128x1x256x254, .f32⟩
  | 17 => ⟨S128x1x256x254, .f32⟩
  | 18 => ⟨S128x1x256x254, .f32⟩
  | 19 => ⟨S_, .f32⟩
  | 20 => ⟨S128x1x256x254, .f32⟩
  | 21 => ⟨S128x1x256x254, .f32⟩
  | 22 => ⟨S128x1x256x1, .f32⟩
  | 23 => ⟨S_, .f32⟩
  | 24 => ⟨S128x1x256x1, .f32⟩
  | 25 => ⟨S128x1x256x1, .f32⟩
  | 26 => ⟨S128x1x256x1, .f32⟩
  | 27 => ⟨S_, .f32⟩
  | 28 => ⟨S128x1x256x1, .f32⟩
  | 29 => ⟨S128x1x256x1, .f32⟩
  | 30 => ⟨S128x1x256x1, .f32⟩
  | 31 => ⟨S128x1x256x1, .f32⟩
  | 32 => ⟨S128x1x256x1, .f32⟩
  | 33 => ⟨S_, .f32⟩
  | 34 => ⟨S128x1x256x1, .f32⟩
  | 35 => ⟨S128x1x256x1, .f32⟩
  | 36 => ⟨S128x1x256x1, .f32⟩
  | 37 => ⟨S_, .f32⟩
  | 38 => ⟨S128x1x256x1, .f32⟩
  | 39 => ⟨S128x1x256x1, .f32⟩
  | 40 => ⟨S128x1x256x1, .f32⟩
  | 41 => ⟨S_, .f32⟩
  | 42 => ⟨S128x1x256x1, .f32⟩
  | 43 => ⟨S128x1x256x1, .f32⟩
  | 44 => ⟨S128x1x256x1, .f32⟩
  | 45 => ⟨S128x1x256x1, .f32⟩
  | 46 => ⟨S128x1x256x1, .f32⟩
  | 47 => ⟨S_, .f32⟩
  | 48 => ⟨S128x1x256x1, .f32⟩
  | 49 => ⟨S128x1x256x1, .f32⟩
  | 50 => ⟨S128x1x256x256, .f32⟩
  | 51 => ⟨S128x1x256x256, .f32⟩
  | 52 => ⟨S128x1x256x254, .f32⟩
  | 53 => ⟨S128x1x256x254, .f32⟩
  | 54 => ⟨S128x1x256x254, .f32⟩
  | 55 => ⟨S_, .f32⟩
  | 56 => ⟨S128x1x256x254, .f32⟩
  | 57 => ⟨S128x1x256x254, .f32⟩
  | 58 => ⟨S128x1x256x1, .f32⟩
  | 59 => ⟨S_, .f32⟩
  | 60 => ⟨S128x1x256x1, .f32⟩
  | 61 => ⟨S128x1x256x1, .f32⟩
  | 62 => ⟨S128x1x256x1, .f32⟩
  | 63 => ⟨S_, .f32⟩
  | 64 => ⟨S128x1x256x1, .f32⟩
  | 65 => ⟨S128x1x256x1, .f32⟩
  | 66 => ⟨S128x1x256x1, .f32⟩
  | 67 => ⟨S128x1x256x1, .f32⟩
  | 68 => ⟨S128x1x256x1, .f32⟩
  | 69 => ⟨S_, .f32⟩
  | 70 => ⟨S128x1x256x1, .f32⟩
  | 71 => ⟨S128x1x256x1, .f32⟩
  | 72 => ⟨S128x1x256x1, .f32⟩
  | 73 => ⟨S_, .f32⟩
  | 74 => ⟨S128x1x256x1, .f32⟩
  | 75 => ⟨S128x1x256x1, .f32⟩
  | 76 => ⟨S128x1x256x1, .f32⟩
  | 77 => ⟨S_, .f32⟩
  | 78 => ⟨S128x1x256x1, .f32⟩
  | 79 => ⟨S128x1x256x1, .f32⟩
  | 80 => ⟨S128x1x256x1, .f32⟩
  | 81 => ⟨S128x1x256x1, .f32⟩
  | 82 => ⟨S128x1x256x1, .f32⟩
  | 83 => ⟨S_, .f32⟩
  | 84 => ⟨S128x1x256x1, .f32⟩
  | 85 => ⟨S128x1x256x1, .f32⟩
  | 86 => ⟨S128x1x256x256, .f32⟩
  | 87 => ⟨S128x1x256x256, .f32⟩
  | 88 => ⟨S128x1x256x254, .f32⟩
  | 89 => ⟨S128x1x256x254, .f32⟩
  | 90 => ⟨S_, .f32⟩
  | 91 => ⟨S128x1x256x254, .f32⟩
  | 92 => ⟨S128x1x256x254, .f32⟩
  | 93 => ⟨S128x1x256x254, .f32⟩
  | 94 => ⟨S128x1x256x254, .f32⟩
  | 95 => ⟨S128x1x256x254, .f32⟩
  | 96 => ⟨S_, .f32⟩
  | 97 => ⟨S128x1x256x254, .f32⟩
  | 98 => ⟨S128x1x256x254, .f32⟩
  | 99 => ⟨S128x1x256x1, .f32⟩
  | 100 => ⟨S_, .f32⟩
  | 101 => ⟨S128x1x256x1, .f32⟩
  | 102 => ⟨S128x1x256x1, .f32⟩
  | 103 => ⟨S128x1x256x1, .f32⟩
  | 104 => ⟨S_, .f32⟩
  | 105 => ⟨S128x1x256x1, .f32⟩
  | 106 => ⟨S128x1x256x1, .f32⟩
  | 107 => ⟨S128x1x256x1, .f32⟩
  | 108 => ⟨S128x1x256x1, .f32⟩
  | 109 => ⟨S_, .f32⟩
  | 110 => ⟨S128x1x256x1, .f32⟩
  | 111 => ⟨S128x1x256x1, .f32⟩
  | 112 => ⟨S128x1x256x1, .f32⟩
  | 113 => ⟨S128x1x256x1, .f32⟩
  | 114 => ⟨S128x1x256x1, .f32⟩
  | 115 => ⟨S_, .f32⟩
  | 116 => ⟨S128x1x256x1, .f32⟩
  | 117 => ⟨S128x1x256x1, .f32⟩
  | 118 => ⟨S128x1x256x1, .f32⟩
  | 119 => ⟨S_, .f32⟩
  | 120 => ⟨S128x1x256x1, .f32⟩
  | 121 => ⟨S128x1x256x1, .f32⟩
  | 122 => ⟨S128x1x256x1, .f32⟩
  | 123 => ⟨S_, .f32⟩
  | 124 => ⟨S128x1x256x1, .f32⟩
  | 125 => ⟨S128x1x256x1, .f32⟩
  | 126 => ⟨S128x1x256x1, .f32⟩
  | 127 => ⟨S128x1x256x1, .f32⟩
  | _ => ⟨S128x2x256x256, .f32⟩

abbrev hbmTy0_1 (i : Nat) : BufTy := match i % 128 with
  | 0 => ⟨S_, .f32⟩
  | 1 => ⟨S128x1x256x1, .f32⟩
  | 2 => ⟨S128x1x256x1, .f32⟩
  | 3 => ⟨S128x1x256x1, .f32⟩
  | 4 => ⟨S128x1x256x1, .f32⟩
  | 5 => ⟨S128x1x256x1, .f32⟩
  | 6 => ⟨S_, .f32⟩
  | 7 => ⟨S128x1x256x1, .f32⟩
  | 8 => ⟨S128x1x256x1, .f32⟩
  | 9 => ⟨S128x1x256x256, .f32⟩
  | 10 => ⟨S128x1x256x256, .f32⟩
  | 11 => ⟨S128x1x256x254, .f32⟩
  | 12 => ⟨S128x1x256x254, .f32⟩
  | 13 => ⟨S_, .f32⟩
  | 14 => ⟨S128x1x256x254, .f32⟩
  | 15 => ⟨S128x1x256x254, .f32⟩
  | 16 => ⟨S128x1x256x254, .f32⟩
  | 17 => ⟨S128x1x256x254, .f32⟩
  | 18 => ⟨S128x1x256x254, .f32⟩
  | 19 => ⟨S_, .f32⟩
  | 20 => ⟨S128x1x256x254, .f32⟩
  | 21 => ⟨S128x1x256x254, .f32⟩
  | 22 => ⟨S128x1x256x1, .f32⟩
  | 23 => ⟨S_, .f32⟩
  | 24 => ⟨S128x1x256x1, .f32⟩
  | 25 => ⟨S128x1x256x1, .f32⟩
  | 26 => ⟨S128x1x256x1, .f32⟩
  | 27 => ⟨S_, .f32⟩
  | 28 => ⟨S128x1x256x1, .f32⟩
  | 29 => ⟨S128x1x256x1, .f32⟩
  | 30 => ⟨S128x1x256x1, .f32⟩
  | 31 => ⟨S128x1x256x1, .f32⟩
  | 32 => ⟨S_, .f32⟩
  | 33 => ⟨S128x1x256x1, .f32⟩
  | 34 => ⟨S128x1x256x1, .f32⟩
  | 35 => ⟨S128x1x256x1, .f32⟩
  | 36 => ⟨S128x1x256x1, .f32⟩
  | 37 => ⟨S128x1x256x1, .f32⟩
  | 38 => ⟨S_, .f32⟩
  | 39 => ⟨S128x1x256x1, .f32⟩
  | 40 => ⟨S128x1x256x1, .f32⟩
  | 41 => ⟨S128x1x256x1, .f32⟩
  | 42 => ⟨S_, .f32⟩
  | 43 => ⟨S128x1x256x1, .f32⟩
  | 44 => ⟨S128x1x256x1, .f32⟩
  | 45 => ⟨S128x1x256x1, .f32⟩
  | 46 => ⟨S_, .f32⟩
  | 47 => ⟨S128x1x256x1, .f32⟩
  | 48 => ⟨S128x1x256x1, .f32⟩
  | 49 => ⟨S128x1x256x1, .f32⟩
  | 50 => ⟨S128x1x256x1, .f32⟩
  | 51 => ⟨S_, .f32⟩
  | 52 => ⟨S128x1x256x1, .f32⟩
  | 53 => ⟨S128x1x256x1, .f32⟩
  | 54 => ⟨S128x1x256x1, .f32⟩
  | 55 => ⟨S128x1x256x1, .f32⟩
  | 56 => ⟨S128x1x256x1, .f32⟩
  | 57 => ⟨S_, .f32⟩
  | 58 => ⟨S128x1x256x1, .f32⟩
  | 59 => ⟨S128x1x256x1, .f32⟩
  | 60 => ⟨S128x1x256x256, .f32⟩
  | 61 => ⟨S128x1x256x256, .f32⟩
  | 62 => ⟨S128x1x256x254, .f32⟩
  | 63 => ⟨S128x1x256x254, .f32⟩
  | 64 => ⟨S128x1x256x254, .f32⟩
  | 65 => ⟨S_, .f32⟩
  | 66 => ⟨S128x1x256x254, .f32⟩
  | 67 => ⟨S128x1x256x254, .f32⟩
  | 68 => ⟨S128x1x256x1, .f32⟩
  | 69 => ⟨S_, .f32⟩
  | 70 => ⟨S128x1x256x1, .f32⟩
  | 71 => ⟨S128x1x256x1, .f32⟩
  | 72 => ⟨S128x1x256x1, .f32⟩
  | 73 => ⟨S_, .f32⟩
  | 74 => ⟨S128x1x256x1, .f32⟩
  | 75 => ⟨S128x1x256x1, .f32⟩
  | 76 => ⟨S128x1x256x1, .f32⟩
  | 77 => ⟨S128x1x256x1, .f32⟩
  | 78 => ⟨S128x1x256x1, .f32⟩
  | 79 => ⟨S_, .f32⟩
  | 80 => ⟨S128x1x256x1, .f32⟩
  | 81 => ⟨S128x1x256x1, .f32⟩
  | 82 => ⟨S128x1x256x1, .f32⟩
  | 83 => ⟨S_, .f32⟩
  | 84 => ⟨S128x1x256x1, .f32⟩
  | 85 => ⟨S128x1x256x1, .f32⟩
  | 86 => ⟨S128x1x256x1, .f32⟩
  | 87 => ⟨S_, .f32⟩
  | 88 => ⟨S128x1x256x1, .f32⟩
  | 89 => ⟨S128x1x256x1, .f32⟩
  | 90 => ⟨S128x1x256x1, .f32⟩
  | 91 => ⟨S128x1x256x1, .f32⟩
  | 92 => ⟨S128x1x256x1, .f32⟩
  | 93 => ⟨S_, .f32⟩
  | 94 => ⟨S128x1x256x1, .f32⟩
  | 95 => ⟨S128x1x256x1, .f32⟩
  | 96 => ⟨S128x1x256x256, .f32⟩
  | 97 => ⟨S128x1x256x256, .f32⟩
  | 98 => ⟨S128x1x256x254, .f32⟩
  | 99 => ⟨S128x1x256x254, .f32⟩
  | 100 => ⟨S128x1x256x254, .f32⟩
  | 101 => ⟨S_, .f32⟩
  | 102 => ⟨S128x1x256x254, .f32⟩
  | 103 => ⟨S128x1x256x254, .f32⟩
  | 104 => ⟨S128x1x256x1, .f32⟩
  | 105 => ⟨S_, .f32⟩
  | 106 => ⟨S128x1x256x1, .f32⟩
  | 107 => ⟨S128x1x256x1, .f32⟩
  | 108 => ⟨S128x1x256x1, .f32⟩
  | 109 => ⟨S_, .f32⟩
  | 110 => ⟨S128x1x256x1, .f32⟩
  | 111 => ⟨S128x1x256x1, .f32⟩
  | 112 => ⟨S128x1x256x1, .f32⟩
  | 113 => ⟨S128x1x256x1, .f32⟩
  | 114 => ⟨S128x1x256x1, .f32⟩
  | 115 => ⟨S_, .f32⟩
  | 116 => ⟨S128x1x256x1, .f32⟩
  | 117 => ⟨S128x1x256x1, .f32⟩
  | 118 => ⟨S128x1x256x1, .f32⟩
  | 119 => ⟨S_, .f32⟩
  | 120 => ⟨S128x1x256x1, .f32⟩
  | 121 => ⟨S128x1x256x1, .f32⟩
  | 122 => ⟨S128x1x256x1, .f32⟩
  | 123 => ⟨S_, .f32⟩
  | 124 => ⟨S128x1x256x1, .f32⟩
  | 125 => ⟨S128x1x256x1, .f32⟩
  | 126 => ⟨S128x1x256x1, .f32⟩
  | 127 => ⟨S128x1x256x1, .f32⟩
  | _ => ⟨S128x2x256x256, .f32⟩

abbrev hbmTy0_2 (i : Nat) : BufTy := match i % 128 with
  | 0 => ⟨S128x1x256x1, .f32⟩
  | 1 => ⟨S_, .f32⟩
  | 2 => ⟨S128x1x256x1, .f32⟩
  | 3 => ⟨S128x1x256x1, .f32⟩
  | 4 => ⟨S128x1x256x256, .f32⟩
  | 5 => ⟨S128x1x256x256, .f32⟩
  | 6 => ⟨S128x1x256x256, .f32⟩
  | 7 => ⟨S128x1x256x256, .f32⟩
  | 8 => ⟨S128x1x256x256, .f32⟩
  | 9 => ⟨S128x1x256x256, .f32⟩
  | 10 => ⟨S128x1x256x256, .f32⟩
  | 11 => ⟨S128x1x256x256, .f32⟩
  | 12 => ⟨S128x1x256x256, .f32⟩
  | 13 => ⟨S_, .f32⟩
  | 14 => ⟨S1x256x256, .f32⟩
  | 15 => ⟨S128x1x256x256, .f32⟩
  | 16 => ⟨S1x1x256x256, .f32⟩
  | 17 => ⟨S128x1x256x256, .f32⟩
  | 18 => ⟨S128x1x256x256, .f32⟩
  | _ => ⟨S128x2x256x256, .f32⟩

abbrev hbmTy (i : Nat) : BufTy := match i / 128 with
  | 0 => hbmTy0_0 i
  | 1 => hbmTy0_1 i
  | 2 => hbmTy0_2 i
  | _ => ⟨S128x2x256x256, .f32⟩

abbrev bufTy : (tb : Table) → Fin (tcTables nBuf tb) → BufTy
  | .hbm, ⟨i, _⟩ => hbmTy i
  | _, _ => ⟨S128x2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_7 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_8 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_9 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_10 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_11 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_12 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_13 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_14 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_15 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_16 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_17 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_18 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_19 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_20 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_21 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_22 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_23 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_24 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_25 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_26 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_cst_27 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_28 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_29 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_30 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_31 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_32 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_33 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_cst_34 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_cst_35 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_36 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_cst_37 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_cst_38 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_cst_39 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_40 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_cst_41 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_cst_42 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_cst_43 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_cst_44 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_cst_45 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_cst_46 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_cst_47 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_cst_48 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_cst_49 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_cst_50 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_cst_51 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩

abbrev nD : Nat := 1
abbrev τ : Topo := Topo.v7x

variable {F : FTy → Type} [FloatOps F]

class Facts₀ : Prop where
  slices_S128x2x256x256_S128x1x256x256_0_0_0_0 : S128x2x256x256.Slices ![0, 0, 0, 0] S128x1x256x256
  bcast_S_S128x1x256x256 : S_.BroadcastsInDim S128x1x256x256 (![] : Fin 0 → Fin S128x1x256x256.rank)
  slices_S128x2x256x256_S128x1x256x256_0_1_0_0 : S128x2x256x256.Slices ![0, 1, 0, 0] S128x1x256x256
  transposes_S128x1x256x256_S128x1x256x256_0_1_3_2 : S128x1x256x256.Transposes [0, 1, 3, 2] S128x1x256x256
  slices_S128x1x256x256_S128x1x256x254_0_0_0_2 : S128x1x256x256.Slices ![0, 0, 0, 2] S128x1x256x254
  slices_S128x1x256x256_S128x1x256x254_0_0_0_0 : S128x1x256x256.Slices ![0, 0, 0, 0] S128x1x256x254
  bcast_S_S128x1x256x254 : S_.BroadcastsInDim S128x1x256x254 (![] : Fin 0 → Fin S128x1x256x254.rank)
  slices_S128x1x256x256_S128x1x256x1_0_0_0_0 : S128x1x256x256.Slices ![0, 0, 0, 0] S128x1x256x1
  bcast_S_S128x1x256x1 : S_.BroadcastsInDim S128x1x256x1 (![] : Fin 0 → Fin S128x1x256x1.rank)
  slices_S128x1x256x256_S128x1x256x1_0_0_0_1 : S128x1x256x256.Slices ![0, 0, 0, 1] S128x1x256x1
  slices_S128x1x256x256_S128x1x256x1_0_0_0_2 : S128x1x256x256.Slices ![0, 0, 0, 2] S128x1x256x1
  slices_S128x1x256x256_S128x1x256x1_0_0_0_255 : S128x1x256x256.Slices ![0, 0, 0, 255] S128x1x256x1
  slices_S128x1x256x256_S128x1x256x1_0_0_0_254 : S128x1x256x256.Slices ![0, 0, 0, 254] S128x1x256x1
  slices_S128x1x256x256_S128x1x256x1_0_0_0_253 : S128x1x256x256.Slices ![0, 0, 0, 253] S128x1x256x1
  concatenates_S128x1x256x1_S128x1x256x254_S128x1x256x1_S128x1x256x256_d3 : Shape.Concatenates [S128x1x256x1, S128x1x256x254, S128x1x256x1] S128x1x256x256 3
  slices_S128x1x256x256_S128x1x256x254_0_0_0_1 : S128x1x256x256.Slices ![0, 0, 0, 1] S128x1x256x254
  slices_S128x1x256x256_S128x1x256x1_0_0_0_3 : S128x1x256x256.Slices ![0, 0, 0, 3] S128x1x256x1
  slices_S128x1x256x256_S128x1x256x1_0_0_0_252 : S128x1x256x256.Slices ![0, 0, 0, 252] S128x1x256x1
  bcast_S_S1x256x256 : S_.BroadcastsInDim S1x256x256 (![] : Fin 0 → Fin S1x256x256.rank)
  bcast_S1x256x256_S1x1x256x256_1_2_3 : S1x256x256.BroadcastsInDim S1x1x256x256 (![1, 2, 3] : Fin 3 → Fin S1x1x256x256.rank)
  bcast_S1x1x256x256_S128x1x256x256_0_1_2_3 : S1x1x256x256.BroadcastsInDim S128x1x256x256 (![0, 1, 2, 3] : Fin 4 → Fin S128x1x256x256.rank)

variable [Facts₀]

class Facts : Prop extends Facts₀ where

variable [Facts]
-- ==== Proof.LibBatchBlock.lean ====
/-
  A BLOCK ALONG THE LEADING AXIS of a rank-4 array — entries `o, …, o + b − 1` on axis 0, everything on the other
  three axes — and the layout operations it commutes with. A program that treats the leading axis as a batch (every
  operation acts on each entry of the axis separately) computes, on a block of its input, the same block of its output;
  the lemmas here are that statement one operation at a time:

    * a unit-stride slice that keeps the whole leading axis      (`block_slice`)
    * the transpose that exchanges the two trailing axes          (`block_swap`)
    * three pieces laid end to end along the last axis            (`block_cat3`)
    * a splat, and the pointwise arithmetic                       (`block_splat`, `block_addf` …)

  Each is an equation between whole arrays, so a proof moves `block` through a term by rewriting.
-/
import Idealize.ShloMosaic.PureOps
import Idealize.ShloMosaic.Lib.Pipeline.Value
import Idealize.ShloMosaic.Lib.ValueIdx

namespace Cert.Lib.BatchBlock

open Idealize.ShloMosaic Idealize.ShloMosaic.ValueIdx

variable {α : Type}

/-- The rank-4 shape with the given extents. -/
abbrev sh4 (B C H W : Nat) : Shape := ⟨4, ![B, C, H, W]⟩

/-- A rank-4 shape is a unit-stride block of another when it fits at the offsets on each of the four axes. -/
theorem slices4 {B C H W B' C' H' W' : Nat} (off : Fin 4 → Nat) (h0 : off 0 + B' ≤ B) (h1 : off 1 + C' ≤ C)
    (h2 : off 2 + H' ≤ H) (h3 : off 3 + W' ≤ W) : (sh4 B C H W).Slices off (sh4 B' C' H' W') :=
  ⟨rfl, fun a => match a with | ⟨0, _⟩ => h0 | ⟨1, _⟩ => h1 | ⟨2, _⟩ => h2 | ⟨3, _⟩ => h3⟩

/-- Offset `o` on the leading axis, none on the others. -/
abbrev lead (o : Nat) : Fin 4 → Nat := ![o, 0, 0, 0]

theorem slices_lead {B b C H W : Nat} (o : Nat) (h : o + b ≤ B) : (sh4 B C H W).Slices (lead o) (sh4 b C H W) :=
  slices4 _ h (Nat.le_of_eq (Nat.zero_add _)) (Nat.le_of_eq (Nat.zero_add _)) (Nat.le_of_eq (Nat.zero_add _))

/-- THE BLOCK: entries `o, …, o + b − 1` of the leading axis of `x`. -/
def block {B b C H W : Nat} (o : Nat) (h : o + b ≤ B) (x : (sh4 B C H W).Idx → α) : (sh4 b C H W).Idx → α :=
  extractStridedSlice (sh4 b C H W) (lead o) x (slices_lead o h)

/-- The block read at an index: the array at the index moved `o` along the leading axis. -/
theorem block_ix4 {B b C H W : Nat} (o : Nat) (h : o + b ≤ B) (x : (sh4 B C H W).Idx → α)
    (p : Fin b) (q : Fin C) (r : Fin H) (s : Fin W) :
    block o h x (ix4 p q r s) = x (ix4 ⟨o + p.val, Nat.lt_of_lt_of_le (Nat.add_lt_add_left p.isLt o) h⟩ q r s) := by
  unfold block extractStridedSlice
  refine congrArg x (funext fun a => Fin.ext ?_)
  match a with
  | ⟨0, _⟩ => rfl
  | ⟨1, _⟩ => exact Nat.zero_add _
  | ⟨2, _⟩ => exact Nat.zero_add _
  | ⟨3, _⟩ => exact Nat.zero_add _

/-! ## A slice that keeps the whole leading axis -/

/-- A slice that keeps the whole leading axis has offset zero there, so it is also a slice of any block. -/
theorem slices_of_block {B b C H W C' H' W' : Nat} {off : Fin 4 → Nat}
    (hs : (sh4 B C H W).Slices off (sh4 B C' H' W')) : (sh4 b C H W).Slices off (sh4 b C' H' W') := by
  obtain ⟨_, hs⟩ := hs
  have h0 : off 0 + B ≤ B := hs (0 : Fin 4)
  have h1 : off 1 + C' ≤ C := hs (1 : Fin 4)
  have h2 : off 2 + H' ≤ H := hs (2 : Fin 4)
  have h3 : off 3 + W' ≤ W := hs (3 : Fin 4)
  exact slices4 off (by omega) h1 h2 h3

/-- The block of such a slice is the slice of the block: the two offsets add in either order. -/
theorem block_slice {B b C H W C' H' W' : Nat} (o : Nat) (h : o + b ≤ B) (off : Fin 4 → Nat)
    (x : (sh4 B C H W).Idx → α) (hs : (sh4 B C H W).Slices off (sh4 B C' H' W')) :
    block o h (extractStridedSlice (sh4 B C' H' W') off x hs)
      = extractStridedSlice (sh4 b C' H' W') off (block o h x) (slices_of_block hs) := by
  funext j
  unfold block extractStridedSlice
  refine congrArg x (funext fun a => Fin.ext ?_)
  exact Nat.add_left_comm _ _ _

/-! ## The transpose of the two trailing axes -/

theorem perm_swap : ([0, 1, 3, 2] : List (Fin 4)).Perm (List.finRange 4) := by decide

/-- Exchanging the two trailing axes is a transpose, whatever the extents. -/
theorem transposes_swap {B C H W : Nat} : (sh4 B C H W).Transposes [0, 1, 3, 2] (sh4 B C W H) :=
  ⟨perm_swap, rfl, fun b => match b with | ⟨0, _⟩ => rfl | ⟨1, _⟩ => rfl | ⟨2, _⟩ => rfl | ⟨3, _⟩ => rfl⟩

/-- The transpose read at an index: the operand with the two trailing coordinates exchanged. -/
theorem swap_ix4 {B C H W : Nat} (x : (sh4 B C H W).Idx → α) (ht : (sh4 B C H W).Transposes [0, 1, 3, 2] (sh4 B C W H))
    (p : Fin B) (q : Fin C) (r : Fin W) (s : Fin H) :
    transpose (sh4 B C W H) [0, 1, 3, 2] x ht (ix4 p q r s) = x (ix4 p q s r) :=
  transpose_apply [0, 1, 3, 2] x ht (ix4 p q r s) (ix4 p q s r) fun b =>
    match b with | ⟨0, _⟩ => rfl | ⟨1, _⟩ => rfl | ⟨2, _⟩ => rfl | ⟨3, _⟩ => rfl

/-- The block of the transpose is the transpose of the block: the leading axis stays where it is. -/
theorem block_swap {B b C H W : Nat} (o : Nat) (h : o + b ≤ B) (x : (sh4 B C H W).Idx → α)
    (ht : (sh4 B C H W).Transposes [0, 1, 3, 2] (sh4 B C W H)) :
    block o h (transpose (sh4 B C W H) [0, 1, 3, 2] x ht)
      = transpose (sh4 b C W H) [0, 1, 3, 2] (block o h x) transposes_swap := by
  funext j
  obtain ⟨p, q, r, s, rfl⟩ : ∃ (p : Fin b) (q : Fin C) (r : Fin W) (s : Fin H), j = ix4 p q r s :=
    ⟨j 0, j 1, j 2, j 3, eq_ix4 j⟩
  rw [block_ix4, swap_ix4, swap_ix4, block_ix4]

/-! ## Three pieces laid end to end along the last axis -/

/-- Three shapes that differ only in their last extents lie end to end along the last axis of the shape whose last
    extent is the sum. -/
theorem concatenates3 {B C H W0 W1 W2 W : Nat} (hW : W0 + W1 + W2 = W) :
    Shape.Concatenates [sh4 B C H W0, sh4 B C H W1, sh4 B C H W2] (sh4 B C H W) 3 := by
  refine ⟨by show 2 ≤ 3; omega, ?_, ?_⟩
  · intro s hs
    simp only [List.mem_cons, List.mem_nil_iff, or_false] at hs
    rcases hs with rfl | rfl | rfl <;>
      exact ⟨rfl, fun b hb => match b, hb with
        | ⟨0, _⟩, _ => rfl | ⟨1, _⟩, _ => rfl | ⟨2, _⟩, _ => rfl | ⟨3, _⟩, hb => absurd rfl hb⟩
  · show W0 + (W1 + (W2 + 0)) = W
    omega

/-- THE THREE-PIECE CONCATENATION along the last axis, its pieces plain arguments. -/
def cat3 {B C H W0 W1 W2 W : Nat} (hW : W0 + W1 + W2 = W) (u0 : (sh4 B C H W0).Idx → α) (u1 : (sh4 B C H W1).Idx → α)
    (u2 : (sh4 B C H W2).Idx → α) : (sh4 B C H W).Idx → α :=
  concatenate (sh4 B C H W) 3 [⟨sh4 B C H W0, u0⟩, ⟨sh4 B C H W1, u1⟩, ⟨sh4 B C H W2, u2⟩] (concatenates3 hW)

/-- The concatenation read at an index whose last coordinate falls in the FIRST piece. -/
theorem cat3_ix4_fst {B C H W0 W1 W2 W : Nat} (hW : W0 + W1 + W2 = W) (u0 : (sh4 B C H W0).Idx → α)
    (u1 : (sh4 B C H W1).Idx → α) (u2 : (sh4 B C H W2).Idx → α) (p : Fin B) (q : Fin C) (r : Fin H) (s : Fin W)
    (hs : s.val < W0) : cat3 hW u0 u1 u2 (ix4 p q r s) = u0 (ix4 p q r ⟨s.val, hs⟩) := by
  unfold cat3
  refine concatenate_apply_piece (t := sh4 B C H W) 3 [⟨sh4 B C H W0, u0⟩, ⟨sh4 B C H W1, u1⟩, ⟨sh4 B C H W2, u2⟩] (concatenates3 hW) (ix4 p q r s) 0 (Nat.zero_lt_succ 2) (sh4 B C H W0) u0 rfl rfl 0 rfl
    (ix4 p q r ⟨s.val, hs⟩) (fun b hb => ?_) (Nat.zero_add _)
  match b, hb with
  | ⟨0, _⟩, _ => rfl
  | ⟨1, _⟩, _ => rfl
  | ⟨2, _⟩, _ => rfl
  | ⟨3, _⟩, hb => exact absurd rfl hb

/-- … in the SECOND piece: that piece at the coordinate less the first piece's extent. -/
theorem cat3_ix4_snd {B C H W0 W1 W2 W : Nat} (hW : W0 + W1 + W2 = W) (u0 : (sh4 B C H W0).Idx → α)
    (u1 : (sh4 B C H W1).Idx → α) (u2 : (sh4 B C H W2).Idx → α) (p : Fin B) (q : Fin C) (r : Fin H) (s : Fin W)
    (hlo : W0 ≤ s.val) (hhi : s.val - W0 < W1) :
    cat3 hW u0 u1 u2 (ix4 p q r s) = u1 (ix4 p q r ⟨s.val - W0, hhi⟩) := by
  unfold cat3
  refine concatenate_apply_piece (t := sh4 B C H W) 3 [⟨sh4 B C H W0, u0⟩, ⟨sh4 B C H W1, u1⟩, ⟨sh4 B C H W2, u2⟩] (concatenates3 hW) (ix4 p q r s) 1 (Nat.succ_lt_succ (Nat.zero_lt_succ 1)) (sh4 B C H W1) u1 rfl rfl
    W0 rfl (ix4 p q r ⟨s.val - W0, hhi⟩) (fun b hb => ?_) (Nat.add_sub_cancel' hlo)
  match b, hb with
  | ⟨0, _⟩, _ => rfl
  | ⟨1, _⟩, _ => rfl
  | ⟨2, _⟩, _ => rfl
  | ⟨3, _⟩, hb => exact absurd rfl hb

/-- … in the THIRD piece: that piece at the coordinate less the first two pieces' extents. -/
theorem cat3_ix4_thd {B C H W0 W1 W2 W : Nat} (hW : W0 + W1 + W2 = W) (u0 : (sh4 B C H W0).Idx → α)
    (u1 : (sh4 B C H W1).Idx → α) (u2 : (sh4 B C H W2).Idx → α) (p : Fin B) (q : Fin C) (r : Fin H) (s : Fin W)
    (hlo : W0 + W1 ≤ s.val) (hhi : s.val - (W0 + W1) < W2) :
    cat3 hW u0 u1 u2 (ix4 p q r s) = u2 (ix4 p q r ⟨s.val - (W0 + W1), hhi⟩) := by
  unfold cat3
  refine concatenate_apply_piece (t := sh4 B C H W) 3 [⟨sh4 B C H W0, u0⟩, ⟨sh4 B C H W1, u1⟩, ⟨sh4 B C H W2, u2⟩] (concatenates3 hW) (ix4 p q r s) 2 (Nat.lt_succ_self 2) (sh4 B C H W2) u2 rfl rfl
    (W0 + W1) rfl (ix4 p q r ⟨s.val - (W0 + W1), hhi⟩) (fun b hb => ?_) (Nat.add_sub_cancel' hlo)
  match b, hb with
  | ⟨0, _⟩, _ => rfl
  | ⟨1, _⟩, _ => rfl
  | ⟨2, _⟩, _ => rfl
  | ⟨3, _⟩, hb => exact absurd rfl hb

/-- The block of the concatenation is the concatenation of the pieces' blocks: which piece an index falls in is decided
    by its last coordinate, which the block does not move. -/
theorem block_cat3 {B b C H W0 W1 W2 W : Nat} (o : Nat) (h : o + b ≤ B) (hW : W0 + W1 + W2 = W)
    (u0 : (sh4 B C H W0).Idx → α) (u1 : (sh4 B C H W1).Idx → α) (u2 : (sh4 B C H W2).Idx → α) :
    block o h (cat3 hW u0 u1 u2) = cat3 hW (block o h u0) (block o h u1) (block o h u2) := by
  funext j
  obtain ⟨p, q, r, s, rfl⟩ : ∃ (p : Fin b) (q : Fin C) (r : Fin H) (s : Fin W), j = ix4 p q r s :=
    ⟨j 0, j 1, j 2, j 3, eq_ix4 j⟩
  have hsW : s.val < W := s.isLt
  rw [block_ix4]
  by_cases h0 : s.val < W0
  · rw [cat3_ix4_fst hW u0 u1 u2 _ q r s h0, cat3_ix4_fst hW _ _ _ p q r s h0, block_ix4]
  · by_cases h1 : s.val < W0 + W1
    · have hlo : W0 ≤ s.val := by omega
      have hhi : s.val - W0 < W1 := by omega
      rw [cat3_ix4_snd hW u0 u1 u2 _ q r s hlo hhi, cat3_ix4_snd hW _ _ _ p q r s hlo hhi, block_ix4]
    · have hlo : W0 + W1 ≤ s.val := by omega
      have hhi : s.val - (W0 + W1) < W2 := by omega
      rw [cat3_ix4_thd hW u0 u1 u2 _ q r s hlo hhi, cat3_ix4_thd hW _ _ _ p q r s hlo hhi, block_ix4]

/-! ## Splats and pointwise arithmetic -/

/-- The block of a splat is the splat. -/
theorem block_splat {B b C H W : Nat} (o : Nat) (h : o + b ≤ B) (c : α) :
    block o h (broadcast (sh4 B C H W) c) = broadcast (sh4 b C H W) c := rfl

section Pointwise
variable {F : FTy → Type} [FloatOps F] {φ : FTy} {B b C H W : Nat} (o : Nat) (h : o + b ≤ B)

/-- Pointwise arithmetic acts index by index, so the block of a sum, difference, product or quotient is that of the blocks. -/
theorem block_addf (x y : FVec F (sh4 B C H W) φ) : block o h (addf x y) = addf (block o h x) (block o h y) := rfl
theorem block_subf (x y : FVec F (sh4 B C H W) φ) : block o h (subf x y) = subf (block o h x) (block o h y) := rfl
theorem block_mulf (x y : FVec F (sh4 B C H W) φ) : block o h (mulf x y) = mulf (block o h x) (block o h y) := rfl
theorem block_divf (x y : FVec F (sh4 B C H W) φ) : block o h (divf x y) = divf (block o h x) (block o h y) := rfl

end Pointwise

end Cert.Lib.BatchBlock
-- ==== Proof.Residual.lean ====
/-
  THE DARCY RESIDUAL on a batch of `B` fields, and that it is computed image by image.

  The input holds, for each of `B` images, two channels on a 256 × 256 grid. From them
      a = (channel 0 + 1.5) / 0.2        (the permeability)
      p = (channel 1 + 0.9) / 115        (the pressure)
  and, with the second-order finite differences `d1` (first derivative) and `d2` (second derivative) taken along the
  LAST axis — one-sided three- and four-point formulas in the first and last column, central ones in the 254 columns
  between, scaled by 1/(2h) = 128 and 1/h² = 65536 for h = 1/256 — and `tr` the exchange of the two grid axes (so
  `tr ∘ d ∘ tr` differentiates along the other axis),
      residual = ((−a)·∂₀₀p − ∂₀a·∂₀p) + ((−a)·∂₁₁p − ∂₁a·∂₁p) − 1,
  the negation spelt `0 − a`. Every operation acts on each image separately, so the residual of a block of images is
  that block of the residual (`block_residual`): `block` moves through the term one operation at a time
  (Proof/LibBatchBlock.lean).
-/
import proofs.«102785_j38439957300077_1_alg».proof.Proof.LibBatchBlock

noncomputable section

namespace Cert.Darcy

open Idealize.ShloMosaic Cert.Lib.BatchBlock

variable {F : FTy → Type} [FloatOps F]

/-- A scalar field on each of `B` images: one value per image, row (of 256) and column (of `W`). -/
abbrev Fld (F : FTy → Type) (B W : Nat) : Type := FVec F (sh4 B 1 256 W) .f32

/-- The two-channel input on `B` images. -/
abbrev Inp (F : FTy → Type) (B : Nat) : Type := FVec F (sh4 B 2 256 256) .f32

/-- The field that is the float with bit pattern `w` everywhere. -/
def splat {B W : Nat} (w : BitVec 32) : Fld F B W := broadcast (sh4 B 1 256 W) (Scalar.ofBits (F := F) .f32 w)

/-- Channel `k` of the input. -/
def chan {B : Nat} (k : Nat) (hk : k + 1 ≤ 2) (x : Inp F B) : Fld F B 256 :=
  extractStridedSlice (sh4 B 1 256 256) ![0, k, 0, 0] x
    (slices4 _ (Nat.le_of_eq (Nat.zero_add _)) hk (Nat.le_of_eq (Nat.zero_add _)) (Nat.le_of_eq (Nat.zero_add _)))

/-- Column `k` of a field, as a field one column wide. -/
def col {B : Nat} (k : Nat) (hk : k + 1 ≤ 256) (f : Fld F B 256) : Fld F B 1 :=
  extractStridedSlice (sh4 B 1 256 1) ![0, 0, 0, k] f
    (slices4 _ (Nat.le_of_eq (Nat.zero_add _)) (Nat.le_of_eq (Nat.zero_add _)) (Nat.le_of_eq (Nat.zero_add _)) hk)

/-- The 254 columns from column `k` on. -/
def cols {B : Nat} (k : Nat) (hk : k + 254 ≤ 256) (f : Fld F B 256) : Fld F B 254 :=
  extractStridedSlice (sh4 B 1 256 254) ![0, 0, 0, k] f
    (slices4 _ (Nat.le_of_eq (Nat.zero_add _)) (Nat.le_of_eq (Nat.zero_add _)) (Nat.le_of_eq (Nat.zero_add _)) hk)

/-- A first column, 254 middle columns and a last column put side by side. -/
def join {B : Nat} (l : Fld F B 1) (c : Fld F B 254) (r : Fld F B 1) : Fld F B 256 :=
  cat3 (by decide : 1 + 254 + 1 = 256) l c r

/-- The two grid axes exchanged. -/
def tr {B : Nat} (f : Fld F B 256) : Fld F B 256 := transpose (sh4 B 1 256 256) [0, 1, 3, 2] f transposes_swap

/-- FIRST DERIVATIVE along the last axis: (−3f₀ + 4f₁ − f₂)·128 in the first column, (f_{j+1} − f_{j−1})·128 in
    between, (3f₂₅₅ − 4f₂₅₄ + f₂₅₃)·128 in the last. -/
def d1 {B : Nat} (f : Fld F B 256) : Fld F B 256 :=
  join
    (mulf (subf (addf (mulf (splat 0xC0400000#32) (col 0 (by decide) f)) (mulf (splat 0x40800000#32) (col 1 (by decide) f)))
      (col 2 (by decide) f)) (splat 0x43000000#32))
    (mulf (subf (cols 2 (by decide) f) (cols 0 (by decide) f)) (splat 0x43000000#32))
    (mulf (addf (subf (mulf (splat 0x40400000#32) (col 255 (by decide) f)) (mulf (splat 0x40800000#32) (col 254 (by decide) f)))
      (col 253 (by decide) f)) (splat 0x43000000#32))

/-- SECOND DERIVATIVE along the last axis: (2f₀ − 5f₁ + 4f₂ − f₃)·65536 in the first column,
    (f_{j+1} − 2f_j + f_{j−1})·65536 in between, (2f₂₅₅ − 5f₂₅₄ + 4f₂₅₃ − f₂₅₂)·65536 in the last. -/
def d2 {B : Nat} (f : Fld F B 256) : Fld F B 256 :=
  join
    (mulf (subf (addf (subf (mulf (splat 0x40000000#32) (col 0 (by decide) f)) (mulf (splat 0x40A00000#32) (col 1 (by decide) f)))
      (mulf (splat 0x40800000#32) (col 2 (by decide) f))) (col 3 (by decide) f)) (splat 0x47800000#32))
    (mulf (addf (subf (cols 2 (by decide) f) (mulf (splat 0x40000000#32) (cols 1 (by decide) f))) (cols 0 (by decide) f))
      (splat 0x47800000#32))
    (mulf (subf (addf (subf (mulf (splat 0x40000000#32) (col 255 (by decide) f)) (mulf (splat 0x40A00000#32) (col 254 (by decide) f)))
      (mulf (splat 0x40800000#32) (col 253 (by decide) f))) (col 252 (by decide) f)) (splat 0x47800000#32))

/-- The permeability field: (channel 0 + 1.5) / 0.2, the constants the floats nearest those decimals. -/
def perm {B : Nat} (x : Inp F B) : Fld F B 256 :=
  divf (addf (chan 0 (by decide) x) (splat 0x3FC00000#32)) (splat 0x3E4CCCCD#32)

/-- The pressure field: (channel 1 + 0.9) / 115. -/
def pres {B : Nat} (x : Inp F B) : Fld F B 256 :=
  divf (addf (chan 1 (by decide) x) (splat 0x3F666666#32)) (splat 0x42E60000#32)

/-- Negation, spelt as the difference from zero. -/
def neg {B : Nat} (f : Fld F B 256) : Fld F B 256 := subf (splat 0x00000000#32) f

/-- THE RESIDUAL of the two-channel input. -/
def residual {B : Nat} (x : Inp F B) : Fld F B 256 :=
  subf
    (addf
      (subf (mulf (neg (perm x)) (tr (d2 (tr (pres x))))) (mulf (tr (d1 (tr (perm x)))) (tr (d1 (tr (pres x))))))
      (subf (mulf (neg (perm x)) (d2 (pres x))) (mulf (d1 (perm x)) (d1 (pres x)))))
    (splat 0x3F800000#32)

/-! ## Image by image -/

section Block
variable {B b : Nat} (o : Nat) (h : o + b ≤ B)

theorem block_splat' {W : Nat} (w : BitVec 32) : block o h (splat w : Fld F B W) = splat w := rfl

theorem block_chan (k : Nat) (hk : k + 1 ≤ 2) (x : Inp F B) : block o h (chan k hk x) = chan k hk (block o h x) :=
  block_slice o h _ x _

theorem block_col (k : Nat) (hk : k + 1 ≤ 256) (f : Fld F B 256) : block o h (col k hk f) = col k hk (block o h f) :=
  block_slice o h _ f _

theorem block_cols (k : Nat) (hk : k + 254 ≤ 256) (f : Fld F B 256) : block o h (cols k hk f) = cols k hk (block o h f) :=
  block_slice o h _ f _

theorem block_join (l : Fld F B 1) (c : Fld F B 254) (r : Fld F B 1) :
    block o h (join l c r) = join (block o h l) (block o h c) (block o h r) :=
  block_cat3 o h _ l c r

theorem block_tr (f : Fld F B 256) : block o h (tr f) = tr (block o h f) := block_swap o h f _

theorem block_neg (f : Fld F B 256) : block o h (neg f) = neg (block o h f) := rfl

/-- Each derivative reads, at an image, only that image's columns. -/
theorem block_d1 (f : Fld F B 256) : block o h (d1 f) = d1 (block o h f) := by
  unfold d1
  simp only [block_join, block_mulf, block_subf, block_addf, block_splat', block_col, block_cols]

theorem block_d2 (f : Fld F B 256) : block o h (d2 f) = d2 (block o h f) := by
  unfold d2
  simp only [block_join, block_mulf, block_subf, block_addf, block_splat', block_col, block_cols]

theorem block_perm (x : Inp F B) : block o h (perm x) = perm (block o h x) := by
  unfold perm
  simp only [block_divf, block_addf, block_splat', block_chan]

theorem block_pres (x : Inp F B) : block o h (pres x) = pres (block o h x) := by
  unfold pres
  simp only [block_divf, block_addf, block_splat', block_chan]

/-- THE RESIDUAL OF A BLOCK OF IMAGES is that block of the residual. -/
theorem block_residual (x : Inp F B) : block o h (residual x) = residual (block o h x) := by
  unfold residual
  simp only [block_subf, block_addf, block_mulf, block_splat', block_neg, block_tr, block_d1, block_d2, block_perm,
    block_pres]

end Block

end Cert.Darcy

end
-- ==== Proof.KernelValue.lean ====
/-
  THE KERNEL'S RESULT ARRAY is the residual of its argument array.

  The grid has 16 points; point `t` is handed images `8t … 8t + 7` of the input (all channels, rows and columns) and
  writes back images `8t … 8t + 7` of the output. What the body stores is the residual of the block it loaded
  (`stored_eq`: the body's operations, in its order, ARE the residual's on a batch of 8), the loaded block is that block of
  the argument array (`inputBlock_eq`), and the residual of a block of images is the block of the residual
  (`Cert.Darcy.block_residual`); so point `t` writes block `t` of the residual of the whole argument (`written_eq`). The
  16 blocks cover the output array (`covered`), which therefore ends holding the residual (`result_eq`, `run`).
-/
import proofs.«102785_j38439957300077_1_alg».proof.Proof.Gen.KernelIdeal.Value
import proofs.«102785_j38439957300077_1_alg».proof.Proof.Residual
import Idealize.ShloMosaic.Lib.Pipeline.Value

noncomputable section

namespace Cert.Darcy.Kernel

open Cert.KernelIdeal Cert.KernelIdeal.Gen Idealize.ShloMosaic Idealize.ShloMosaic.TcCoe Idealize.SL.Sem
open Idealize.ShloMosaic.Pipeline (Dat)
open Idealize.ShloMosaic.ValueIdx Cert.Lib.BatchBlock Cert.Darcy

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-- What the body stores, as a function of the block it loaded, is the residual on a batch of 8: the same operations in
    the same order. -/
theorem stored_eq (v0 : Vec Ideal S8x2x256x256 .f32) :
    k0_pay1 (k0_pay2 v0) (k0_pay4 v0) (k0_pay6 (k0_pay3 v0) (k0_pay5 v0))
      (k0_pay10 (k0_pay7 (k0_pay3 v0)) (k0_pay8 (k0_pay3 v0)) (k0_pay9 (k0_pay3 v0)))
      (k0_pay15 (k0_pay3 v0) (k0_pay11 (k0_pay3 v0)) (k0_pay12 (k0_pay3 v0)) (k0_pay13 (k0_pay3 v0)) (k0_pay14 (k0_pay3 v0))
        (Scalar.ofBits .f32 0x40A00000#32))
      (k0_pay16 (k0_pay2 v0)) (k0_pay17 (k0_pay2 v0)) (k0_pay18 (k0_pay2 v0)) (k0_pay19 (F := Ideal))
      = residual (F := Ideal) (B := 8) v0 := rfl

/-- So the output window's buffer after the body holds the residual of the input window's block. -/
theorem body_eq (x0 : Vec Ideal S8x2x256x256 .f32) : out0_1 x0 = residual (F := Ideal) (B := 8) x0 := by
  unfold out0_1
  rw [View.canon_unit_zero zero_offsets]
  simp only [View.ld_unit_zero (S := S8x2x256x256) zero_offsets]
  exact stored_eq x0

/-- The printed index maps over the 16 grid points: both windows' blocks are at block index `t` on the image axis and
    at 0 on the others. -/
theorem index_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 4) = t.val ∧ win0_1.index t (1 : Fin 4) = 0 ∧ win0_1.index t (2 : Fin 4) = 0
    ∧ win0_1.index t (3 : Fin 4) = 0 :=
  (by decide +kernel : ∀ t : Fin grid0.N, _)

theorem point_lt (t : Fin cfg0.N) : 8 * t.val + 8 ≤ 128 := by
  have h : t.val < grid0.N := t.isLt
  rw [N_0] at h
  omega

/-- The input window's block at point `t` is images `8t … 8t + 7` of the argument array. -/
theorem inputBlock_eq (c : Dev nD) (t : Fin cfg0.N) :
    (iblk m c 0 t : Vec Ideal S8x2x256x256 .f32)
      = block (8 * t.val) (point_lt t) (V m c main_arg0 : S128x2x256x256.Idx → Ideal .f32) := by
  obtain ⟨e0, e1, e2, e3, -⟩ := index_facts t
  funext j
  obtain ⟨p, q, r, s, rfl⟩ : ∃ (p : Fin 8) (q : Fin 2) (r : Fin 256) (s : Fin 256), j = ix4 p q r s :=
    ⟨j 0, j 1, j 2, j 3, eq_ix4 j⟩
  rw [block_ix4]
  show V m c main_arg0 (((cfg0.win 0).blk t).view.emb (ix4 p q r s)) = V m c main_arg0 _
  refine congrArg _ (funext fun a => Fin.ext ?_)
  match a with
  | ⟨0, _⟩ => show win0_0.index t (0 : Fin 4) * 8 + 1 * p.val = 8 * t.val + p.val; omega
  | ⟨1, _⟩ => show win0_0.index t (1 : Fin 4) * 2 + 1 * q.val = q.val; omega
  | ⟨2, _⟩ => show win0_0.index t (2 : Fin 4) * 256 + 1 * r.val = r.val; omega
  | ⟨3, _⟩ => show win0_0.index t (3 : Fin 4) * 256 + 1 * s.val = s.val; omega

/-- An array of the output's shape read through the output window's block at point `t` is its images `8t … 8t + 7`. -/
theorem outputBlock_eq (t : Fin cfg0.N) (G : S128x1x256x256.Idx → Ideal .f32) :
    (((cfg0.win 1).blk t).view.read (Elt Ideal) G : Vec Ideal S8x1x256x256 .f32) = block (8 * t.val) (point_lt t) G := by
  obtain ⟨-, -, -, -, e0, e1, e2, e3⟩ := index_facts t
  funext j
  obtain ⟨p, q, r, s, rfl⟩ : ∃ (p : Fin 8) (q : Fin 1) (r : Fin 256) (s : Fin 256), j = ix4 p q r s :=
    ⟨j 0, j 1, j 2, j 3, eq_ix4 j⟩
  rw [block_ix4]
  show G (((cfg0.win 1).blk t).view.emb (ix4 p q r s)) = G _
  refine congrArg _ (funext fun a => Fin.ext ?_)
  match a with
  | ⟨0, _⟩ => show win0_1.index t (0 : Fin 4) * 8 + 1 * p.val = 8 * t.val + p.val; omega
  | ⟨1, _⟩ => show win0_1.index t (1 : Fin 4) * 1 + 1 * q.val = q.val; omega
  | ⟨2, _⟩ => show win0_1.index t (2 : Fin 4) * 256 + 1 * r.val = r.val; omega
  | ⟨3, _⟩ => show win0_1.index t (3 : Fin 4) * 256 + 1 * s.val = s.val; omega

/-- WHAT POINT `t` WRITES BACK is block `t` of the residual of the whole argument array. -/
theorem written_eq (c : Dev nD) (t : Fin cfg0.N) :
    (dats m 0 c).flushed 1 t
      = ((cfg0.win 1).blk t).view.read (Elt Ideal) (residual (F := Ideal) (B := 128) (V m c main_arg0 : S128x2x256x256.Idx → Ideal .f32)) := by
  show (cfg0.win 1).cut (grid0.coords t) ((dats m 0 c).after 1 t) = _
  rw [after0_1]
  have e1 : out0_1 (iblk m c 0 t) = residual (F := Ideal) (B := 8) (iblk m c 0 t) := body_eq _
  rw [e1, inputBlock_eq m c t, ← block_residual, outputBlock_eq t]
  rfl

/-- An index of the output array is in point `t`'s block iff each coordinate is in the block's range on its axis. -/
theorem mem_block (t : Fin cfg0.N) (i : S128x1x256x256.Idx) :
    i ∈ ((cfg0.win 1).blk t).view.set ↔ ∀ a : Fin 4, win0_1.index t a * S8x1x256x256.size a ≤ (i a).val
      ∧ (i a).val < win0_1.index t a * S8x1x256x256.size a + S8x1x256x256.size a := by
  show i ∈ ((View.whole main_v0).slice (win0_1.rect t)).set ↔ _
  rw [View.set_slice_whole, Rect.mem_set_unit]
  exact Iff.rfl

/-- Every index of the output array is in the block of the point that handles its image: image `n` is point `n / 8`'s. -/
theorem covered (i : S128x1x256x256.Idx) :
    ∃ t : Fin cfg0.N, (cfg0.win 1).flush t = true ∧ i ∈ ((cfg0.win 1).blk t).view.set := by
  have h0 : (i 0).val < 128 := (i 0).isLt
  have h1 : (i 1).val < 1 := (i 1).isLt
  have h2 : (i 2).val < 256 := (i 2).isLt
  have h3 : (i 3).val < 256 := (i 3).isLt
  have hN : (i 0).val / 8 < grid0.N := by rw [N_0]; omega
  refine ⟨⟨(i 0).val / 8, hN⟩, flush0_1 _, ?_⟩
  obtain ⟨-, -, -, -, e0, e1, e2, e3⟩ := index_facts ⟨(i 0).val / 8, hN⟩
  have e0' : win0_1.index ⟨(i 0).val / 8, hN⟩ (0 : Fin 4) = (i 0).val / 8 := e0
  rw [mem_block]
  intro a
  match a with
  | ⟨0, _⟩ =>
    show win0_1.index ⟨(i 0).val / 8, hN⟩ (0 : Fin 4) * 8 ≤ (i 0).val
      ∧ (i 0).val < win0_1.index ⟨(i 0).val / 8, hN⟩ (0 : Fin 4) * 8 + 8
    omega
  | ⟨1, _⟩ =>
    show win0_1.index ⟨(i 0).val / 8, hN⟩ (1 : Fin 4) * 1 ≤ (i 1).val
      ∧ (i 1).val < win0_1.index ⟨(i 0).val / 8, hN⟩ (1 : Fin 4) * 1 + 1
    omega
  | ⟨2, _⟩ =>
    show win0_1.index ⟨(i 0).val / 8, hN⟩ (2 : Fin 4) * 256 ≤ (i 2).val
      ∧ (i 2).val < win0_1.index ⟨(i 0).val / 8, hN⟩ (2 : Fin 4) * 256 + 256
    omega
  | ⟨3, _⟩ =>
    show win0_1.index ⟨(i 0).val / 8, hN⟩ (3 : Fin 4) * 256 ≤ (i 3).val
      ∧ (i 3).val < win0_1.index ⟨(i 0).val / 8, hN⟩ (3 : Fin 4) * 256 + 256
    omega

/-- THE OUTPUT ARRAY after the run is the residual of the argument array. -/
theorem result_eq (c : Dev nD) :
    (dats m 0 c).arrAt 1 cfg0.N = residual (F := Ideal) (B := 128) (m ((c : Thread nD τ).loc main_arg0) : S128x2x256x256.Idx → Ideal .f32) :=
  (dats m 0 c).arrAt_eq_of_cover 1 _ (fun t _ => written_eq m c t) covered

/-- The kernel's run, read: the result array at the residual of the argument, the argument unchanged. -/
theorem run : θ_run defs (onTc (τ := τ) (main (F := Ideal))) ⟨m, fun _ => 0, ρ⟩ fun r => ∀ c : Dev nD,
      r.2.mem ((c : Thread nD τ).loc main_v0)
        = residual (F := Ideal) (B := 128) (m ((c : Thread nD τ).loc main_arg0) : S128x2x256x256.Idx → Ideal .f32)
      ∧ r.2.mem ((c : Thread nD τ).loc main_arg0) = m ((c : Thread nD τ).loc main_arg0) :=
  (θ_run defs _ _).mono (fun r h c => ⟨(h c).1.trans (result_eq m c), (h c).2⟩)
    (Cert.KernelIdeal.Value.run_blocks m ρ)

end Cert.Darcy.Kernel

end
-- ==== Proof.ReferenceValue.lean ====
/-
  THE REFERENCE'S RESULT ARRAY is the residual of its argument array.

  The reference applies the residual's operations, in the residual's order, to the whole batch of 128 images at once. Its
  result term differs from `Cert.Darcy.residual` on a batch of 128 only in spelling: the host's quotient is the kernel's
  at the ideal instance, a broadcast host constant is a splat, the field of ones is built as a constant broadcast twice
  more, and the negation is `−a` where the residual has `0 − a` — on the extended reals `0 − a = −a` for every `a`, the
  infinities included (`hostNegf_eq_neg`).
-/
import proofs.«102785_j38439957300077_1_alg».proof.Proof.Gen.ReferenceIdeal.Run
import proofs.«102785_j38439957300077_1_alg».proof.Proof.Residual
import Idealize.ShloMosaic.PureOps.Ideal.Laws

noncomputable section

namespace Cert.Darcy.Reference

open Cert.ReferenceIdeal Cert.ReferenceIdeal.Gen Cert.ReferenceIdeal.Value
open Idealize.ShloMosaic Idealize.ShloMosaic.TcCoe Idealize.SL.Sem Idealize.ShloMosaic.StableHlo
open Cert.Lib.BatchBlock Cert.Darcy

/-- On the extended reals the negative of a field is its difference from the zero field: `0 − a = −a`. -/
theorem hostNegf_eq_neg {B : Nat} (f : Fld Ideal B 256) : Host.negf f = neg f := by
  funext i
  show -(f i) = Ideal.ofBits .f32 0x00000000#32 - f i
  rw [Ideal.ofBits_zero_f32, zero_sub]

/-- The reference's run, read: the result array at the residual of the argument, the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v220)
        = residual (F := Ideal) (B := 128) (m ((c.tc : Thread nD τ).loc main_arg0) : S128x2x256x256.Idx → Ideal .f32)
      ∧ r.2.mem ((c.tc : Thread nD τ).loc main_arg0) = m ((c.tc : Thread nD τ).loc main_arg0) := by
  refine (θ_run defs _ _).mono (fun _ h c => ⟨(h c).1.trans ?_, (h c).2⟩) (Cert.ReferenceIdeal.Value.run (F := Ideal) m ρ)
  unfold res_main_v211 res_main_v215
  rw [hostNegf_eq_neg]
  rfl

end Cert.Darcy.Reference

end
-- ==== Proof.lean ====
/- The proof of `Cert.Claim` (proofs.«102785_j38439957300077_1_alg».proof.Defs) — frame_Kernel ∧ frame_KernelIdeal ∧
   frame_ReferenceIdeal ∧ preserves_Kernel_KernelIdeal ∧ algebraic_KernelIdeal_ReferenceIdeal.

   The kernel and its reference compute the residual of a Darcy flow problem discretised by second-order finite differences on a
   256 × 256 grid, for 128 images of two channels each: with a = (channel 0 + 1.5)/0.2 and p = (channel 1 + 0.9)/115,
       residual = ((−a)·∂₀₀p − ∂₀a·∂₀p) + ((−a)·∂₁₁p − ∂₁a·∂₁p) − 1
   (Proof/Residual.lean states it for a batch of any size). The reference applies it to the whole batch at once; the kernel
   runs over a grid of 16 points, point `t` computing it on images 8t … 8t + 7 and writing those images of the result.
   Nothing in the residual mixes two images — every operation is a slice, a transpose or a concatenation within an image's
   grid, or pointwise arithmetic — so the residual of a block of images is the block of the residual (Proof/LibBatchBlock.lean,
   `Cert.Darcy.block_residual`), the kernel's 16 blocks tile the result array, and both programs end with it holding the
   residual of the argument array (Proof/KernelValue.lean, Proof/ReferenceValue.lean). The two spell one operation
   differently: the kernel negates as `0 − a`, the reference as `−a`; these agree on the extended reals at every value, the
   infinities included, so no finiteness of the input is used. The three frames are the generated frame runs (the
   reference's its generated run with the result dropped), and the idealization rewrote nothing. -/
import proofs.«102785_j38439957300077_1_alg».proof.Defs
import proofs.«102785_j38439957300077_1_alg».proof.Proof.Gen.Kernel
import proofs.«102785_j38439957300077_1_alg».proof.Proof.Gen.Kernel.Frame
import proofs.«102785_j38439957300077_1_alg».proof.Proof.Gen.KernelIdeal
import proofs.«102785_j38439957300077_1_alg».proof.Proof.Gen.KernelIdeal.Frame
import proofs.«102785_j38439957300077_1_alg».proof.Proof.Gen.KernelIdeal.Value
import proofs.«102785_j38439957300077_1_alg».proof.Proof.Gen.ReferenceIdeal
import proofs.«102785_j38439957300077_1_alg».proof.Proof.Gen.ReferenceIdeal.Run
import proofs.«102785_j38439957300077_1_alg».proof.Proof.Gen.Pre_finite_inputs
import proofs.«102785_j38439957300077_1_alg».proof.Proof.KernelValue
import proofs.«102785_j38439957300077_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories that agree on the argument both programs end with the result array at the residual of that argument. -/
theorem algebraic : Cert.algebraic_KernelIdeal_ReferenceIdeal := by
  intro m ρ m' ρ' _ hagree
  refine ⟨fun c => Cert.Darcy.residual (F := Ideal) (B := 128)
      (m ((c.tc : Thread Cert.KernelIdeal.nD Cert.KernelIdeal.τ).loc Cert.KernelIdeal.main_arg0)
        : Cert.KernelIdeal.S128x2x256x256.Idx → Ideal .f32),
    Cert.Darcy.Kernel.run m ρ, ?_⟩
  refine (θ_run Cert.ReferenceIdeal.defs _ _).mono (fun _ h c => ⟨(h c).1.trans ?_, (h c).2⟩)
    (Cert.Darcy.Reference.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
